-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel

variable [Facts]

def fn {F : FTy → Type} [FloatOps F] (main_arg0 : FVec F S32x1024x768 .f32) (main_arg1 : FVec F S32x1024x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S32x1024x768 .f32 := Host.absf main_arg1
  let main_cst_0 : FVec F S_ .f32 := constant S_ .f32 0x7F800000#32
  let main_v5 : FVec F S32x1024x768 .f32 := broadcastInDim S32x1024x768 ![] bcast_S_S32x1024x768 main_cst_0
  let main_v6 : IVec S32x1024x768 1 := cmpf .olt main_v4 main_v5
  let main_c_1 : IVec S_ 1 := constantI S_ 1 1#1
  let main_v7 : IVec S_ 1 := (fun x v => Host.reduce IntOp.andi x v reducesTo_S32x1024x768_S_d0_1_2 h_S_) main_v6 main_c_1
  let main_v8 : IVec S_ 1 := andi main_v3 main_v7
  main_v8
-- ==== Kernel.lean ====
abbrev S32x1024x768 : Shape := ⟨3, ![32, 1024, 768]⟩
abbrev S32x8x128 : Shape := ⟨3, ![32, 8, 128]⟩
abbrev S1x1024x768 : Shape := ⟨3, ![1, 1024, 768]⟩
abbrev S1x8x128 : Shape := ⟨3, ![1, 8, 128]⟩
abbrev S1024x768 : Shape := ⟨2, ![1024, 768]⟩
abbrev S1024 : Shape := ⟨1, ![1024]⟩
abbrev S1024x1 : Shape := ⟨2, ![1024, 1]⟩
abbrev S768x1024 : Shape := ⟨2, ![768, 1024]⟩
abbrev S1024x1024 : Shape := ⟨2, ![1024, 1024]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S32x1024x768, .f32⟩
  | .hbm, ⟨1, _⟩ => ⟨S32x1024x768, .f32⟩
  | .hbm, ⟨2, _⟩ => ⟨S32x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x8x128, .f32⟩
  | .local _ .vmem, ⟨5, _⟩ => ⟨S1x8x128, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  bitsLt_bf16_f32 : FTy.bits .bf16 < FTy.bits .f32
  transposes_S1024x768_p1_0_S768x1024 : S1024x768.Transposes [1, 0] S768x1024
  reduces_S1024x1024_S1024 : S1024x1024.Reduces [1] S1024
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S32x8x128_S_d0_1_2 : S32x8x128.ReducesTo [0, 1, 2] S_
  h_S_ : 0 < S_.numel
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S32x1024x768.size a
  hwx0_1 : ∀ i : grid0.Coords, EltTy.bits .f32 = 32 ∨ (Rect.block (s := S32x1024x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S32x1024x768, .f32⟩
  | .hbm, ⟨2, _⟩ => ⟨S32x1024x768, .f32⟩
  | .hbm, ⟨3, _⟩ => ⟨S_, .f32⟩
  | .hbm, ⟨4, _⟩ => ⟨S32x1024, .f32⟩
  | .hbm, ⟨5, _⟩ => ⟨S32x1024x1, .f32⟩
  | .hbm, ⟨6, _⟩ => ⟨S32x1024x1, .f32⟩
  | .hbm, ⟨7, _⟩ => ⟨S_, .f32⟩
  | .hbm, ⟨8, _⟩ => ⟨S32x1024x1, .f32⟩
  | .hbm, ⟨9, _⟩ => ⟨S32x1024x1, .f32⟩
  | .hbm, ⟨10, _⟩ => ⟨S32x1024x768, .f32⟩
  | .hbm, ⟨11, _⟩ => ⟨S32x1024x768, .f32⟩
  | .hbm, ⟨12, _⟩ => ⟨S32x1024x768, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x768, .f32⟩
  | .hbm, ⟨21, _⟩ => ⟨S32x1024x768, .f32⟩
  | .hbm, ⟨22, _⟩ => ⟨S32x1024x1024, .f32⟩
  | .hbm, ⟨23, _⟩ => ⟨S32x1024x1024, .f32⟩
  | .hbm, ⟨24, _⟩ => ⟨S_, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x768_0_1_2 : S32x1024x1.BroadcastsInDim S32x1024x768 (![0, 1, 2] : Fin 3 → Fin S32x1024x768.rank)
  bcast_S_S32x1024x1024 : S_.BroadcastsInDim S32x1024x1024 (![] : Fin 0 → Fin S32x1024x1024.rank)
  reducesTo_S32x1024x1024_S_d0_1_2 : S32x1024x1024.ReducesTo [0, 1, 2] S_
  dot_S32x1024x768_S32x1024x768_S32x1024x1024_2_2_1_1_0_0_wf : DotDims.WF S32x1024x768 S32x1024x768 S32x1024x1024 [2] [2] [1] [1] [0] [0]

variable [Facts₀]

def dot_S32x1024x768_S32x1024x768_S32x1024x1024_2_2_1_1_0_0 : DotDims S32x1024x768 S32x1024x768 S32x1024x1024 where
  lhsContracting := [2]
  rhsContracting := [2]
  lhsNonContracting := [1]
  rhsNonContracting := [1]
  lhsBatch := [0]
  rhsBatch := [0]
  wf := dot_S32x1024x768_S32x1024x768_S32x1024x1024_2_2_1_1_0_0_wf

class Facts : Prop extends Facts₀ where

variable [Facts]
-- ==== Proof.LibSumIdx3.lean ====
/-
  Sums over the index set of a rank-3 array, by coordinates (a general lemma file: it imports only the library and is
  generic in the extents).

  An index of an [n0, n1, n2] array is the triple of its coordinates, so a sum over all indices is the triple sum over
  the three coordinate ranges, in any commutative monoid.
-/
import Idealize.ShloMosaic.Lib.ValueIdx

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx3
-- ==== Proof.Spec.lean ====
/-
  The quantity both programs compute, written once over the extended reals, and the one law that joins their two
  arrangements of it.

  The inputs are two stacks of 32 tables of 1024 rows of 768 entries. A row is scaled by its Euclidean length (kept
  above a small floor), the scaled rows of one table are paired by inner product into a 1024 x 1024 table of cosines, the
  negative cosines are cut to zero, and the result is the mean over all 32 * 1024 * 1024 positions of the squared
  difference between the two stacks' cut cosines.

  One program sums the squared differences over all positions at once. The other first sums each table's positions, writes
  that table total times 1/1024 into each of 8 * 128 cells, and then sums all 32 * 8 * 128 cells: a cell's 1024 copies of
  (total * 1/1024) add back to the total, on every extended real (the infinities included), so the two sums agree.
-/
import Idealize.ShloMosaic.Lib.ValueIdx
import Idealize.ShloMosaic.PureOps.Ideal.Laws
import proofs.«162571_j24077586661772_2_alg».proof.Proof.LibSumIdx3

open scoped BigOperators

noncomputable section

namespace Cert.GramLoss

open Idealize.ShloMosaic Idealize.ShloMosaic.ValueIdx Cert.LibSumIdx3

/-! ## The quantity -/

/-- The sum of the squares of a row's 768 entries. -/
def rowSq (x : Fin 768 → EReal) : EReal := ∑ d : Fin 768, x d * x d

/-- The row's Euclidean length, kept above the floor whose f32 word is 0x2B8CBCCC (the f32 nearest 1e-12). -/
def rowNorm (x : Fin 768 → EReal) : EReal := max (Ideal.sqrt (rowSq x)) (Ideal.ofBits .f32 0x2B8CBCCC#32)

/-- The row scaled by that length. -/
def unitRow (x : Fin 768 → EReal) (d : Fin 768) : EReal := Ideal.div (x d) (rowNorm x)

/-- The inner product of two scaled rows of one table: the cosine of rows n and m. -/
def gram (X : Fin 1024 → Fin 768 → EReal) (n m : Fin 1024) : EReal := ∑ d : Fin 768, unitRow (X n) d * unitRow (X m) d

/-- The squared difference of the two tables' cosines at (n, m), each cut below at zero. -/
def sqDiff (X Y : Fin 1024 → Fin 768 → EReal) (n m : Fin 1024) : EReal :=
  (max (gram X n m) 0 - max (gram Y n m) 0) * (max (gram X n m) 0 - max (gram Y n m) 0)

/-- One pair of tables' total: the squared differences summed row by row. -/
def tableLoss (X Y : Fin 1024 → Fin 768 → EReal) : EReal := ∑ n : Fin 1024, ∑ m : Fin 1024, sqDiff X Y n m

/-- Table b of a stack of 32. -/
def table (A : (⟨3, ![32, 1024, 768]⟩ : Shape).Idx → EReal) (b : Fin 32) : Fin 1024 → Fin 768 → EReal :=
  fun n d => A (ix3 b n d)

/-- The squared difference at a position (b, n, m) of the stacks. -/
def sqDiffAt (A B : (⟨3, ![32, 1024, 768]⟩ : Shape).Idx → EReal) (j : (⟨3, ![32, 1024, 1024]⟩ : Shape).Idx) : EReal :=
  sqDiff (table A (j 0)) (table B (j 0)) (j 1) (j 2)

/-- The cells the tiled program leaves before its final sum: cell (b, h, w) holds table b's total times the word
    0x3A800000 (1/1024). -/
def cells (A B : (⟨3, ![32, 1024, 768]⟩ : Shape).Idx → EReal) : (⟨3, ![32, 8, 128]⟩ : Shape).Idx → EReal :=
  fun j => tableLoss (table A (j 0)) (table B (j 0)) * Ideal.ofBits .f32 0x3A800000#32

/-- The mean: the sum of the squared differences over all positions, divided by the word 0x4C000000 (2^25, the number of
    positions). -/
def meanLoss (A B : (⟨3, ![32, 1024, 768]⟩ : Shape).Idx → EReal) : EReal :=
  Ideal.div (∑ j, sqDiffAt A B j) (Ideal.ofBits .f32 0x4C000000#32)

/-! ## The law -/

/-- The word 0x3A800000 denotes 1/1024. -/
theorem word_inv1024 : Ideal.ofBits .f32 0x3A800000#32 = ((1 / 1024 : ℝ) : EReal) := by
  simp [Ideal.ofBits, Ideal.ieee, -EReal.coe_mul]; norm_num

/-- 8 * 128 copies of x * (1/1024) add up to x, whatever extended real x is. -/
theorem spread_sum (x : EReal) :
    ∑ _h : Fin 8, ∑ _w : Fin 128, x * Ideal.ofBits .f32 0x3A800000#32 = x := by
  rw [Finset.sum_const, Finset.sum_const, Finset.card_univ, Finset.card_univ, Fintype.card_fin, Fintype.card_fin,
    EReal.nsmul_eq_mul, EReal.nsmul_eq_mul, word_inv1024]
  have e : ((8 : ℕ) : EReal) * (((128 : ℕ) : EReal) * (x * ((1 / 1024 : ℝ) : EReal)))
      = x * (((8 : ℕ) : EReal) * (((128 : ℕ) : EReal) * ((1 / 1024 : ℝ) : EReal))) := by ac_rfl
  rw [e, ← EReal.coe_coe_eq_natCast, ← EReal.coe_coe_eq_natCast, ← EReal.coe_mul, ← EReal.coe_mul]
  have : ((8 : ℕ) : ℝ) * (((128 : ℕ) : ℝ) * (1 / 1024 : ℝ)) = 1 := by norm_num
  rw [this, EReal.coe_one, mul_one]

/-- The sum of all cells is the sum of the squared differences over all positions. -/
theorem sum_cells (A B : (⟨3, ![32, 1024, 768]⟩ : Shape).Idx → EReal) :
    ∑ j, cells A B j = ∑ j, sqDiffAt A B j := by
  rw [sum_idx3, sum_idx3]
  refine Finset.sum_congr rfl fun b _ => ?_
  exact spread_sum _

end Cert.GramLoss

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.KernelBody.lean ====
/-
  What the kernel's body computes from one pair of tables: every cell of its 8 x 128 output block holds the pair's total
  squared difference of cut cosines times the word 0x3A800000 (1/1024).

  The body is read in three stages. A table's rows are scaled to unit length (the row's sum of squares, its root kept
  above the floor, broadcast back along the row and divided into it). The scaled table is multiplied by its own
  transpose, so entry (n, m) of the product is the inner product of scaled rows n and m. The two products are cut at
  zero, subtracted and squared; the squares are summed along each row, the row sums along the column, and the one
  number left is scaled and copied to every cell.
-/
import proofs.«162571_j24077586661772_2_alg».proof.Proof.Gen.KernelIdeal.Skeleton
import proofs.«162571_j24077586661772_2_alg».proof.Proof.Spec
import proofs.«162571_j24077586661772_2_alg».proof.Proof.LibLayout3
import Idealize.ShloMosaic.Lib.ValueLayout
import Idealize.ShloMosaic.Lib.Pipeline.Value

open scoped BigOperators

noncomputable section

namespace Cert.GramLoss.Body

open Cert.KernelIdeal Cert.KernelIdeal.Gen Idealize.ShloMosaic Idealize.ShloMosaic.ValueIdx
open Cert.GramLoss Cert.LibLayout3

/-! ## The three stages as the body spells them -/

/-- A table's rows scaled to unit length. -/
def scaled (v : FVec Ideal S1024x768 .f32) : FVec Ideal S1024x768 .bf16 :=
  truncf .bf16 (divf v (broadcastTo S1024x768 (maximumf (sqrt (shapeCast S1024x1
    (multiReduction .add [1] S1024 (mulf v v) 0x00000000#32 Facts₀.reduces_S1024x768_S1024 (.inl rfl) rfl) Facts₀.shapeCasts_S1024_S1024x1))
    (broadcast S1024x1 (Scalar.ofBits .f32 0x2B8CBCCC#32))) Facts₀.broadcasts_S1024x1_S1024x768)) Facts₀.bitsLt_bf16_f32

/-- A scaled table times its own transpose. -/
def cosines (u : FVec Ideal S1024x768 .bf16) : FVec Ideal S1024x1024 .f32 :=
  matmul dot_S1024x768_S768x1024_S1024x1024_1_0_0_1_n_n none u
    (transpose S768x1024 [1, 0] u Facts₀.transposes_S1024x768_p1_0_S768x1024) (constant S1024x1024 .f32 0x00000000#32)

/-- The squared differences of the two cut products. -/
def squares (g1 g2 : FVec Ideal S1024x1024 .f32) : FVec Ideal S1024x1024 .f32 :=
  mulf (subf (maximumf g1 (broadcast S1024x1024 (Scalar.ofBits .f32 0x00000000#32)))
      (maximumf g2 (broadcast S1024x1024 (Scalar.ofBits .f32 0x00000000#32))))
    (subf (maximumf g1 (broadcast S1024x1024 (Scalar.ofBits .f32 0x00000000#32)))
      (maximumf g2 (broadcast S1024x1024 (Scalar.ofBits .f32 0x00000000#32))))

/-- The squares summed by rows, then down the column, scaled, and copied to every cell of the block. -/
def spread (q : FVec Ideal S1024x1024 .f32) : FVec Ideal S1x8x128 .f32 :=
  broadcastTo S1x8x128 (shapeCast S1x1x1 (mulf (shapeCast S1x1 (multiReduction .add [0] S1 (shapeCast S1024x1
    (multiReduction .add [1] S1024 q 0x00000000#32 Facts₀.reduces_S1024x1024_S1024 (.inl rfl) rfl) Facts₀.shapeCasts_S1024_S1024x1)
    0x00000000#32 Facts₀.reduces_S1024x1_S1 (.inl rfl) rfl) Facts₀.shapeCasts_S1_S1x1) (broadcast S1x1 (Scalar.ofBits .f32 0x3A800000#32)))
    Facts₀.shapeCasts_S1x1_S1x1x1) Facts₀.broadcasts_S1x1x1_S1x8x128

/-- The body's payload is the three stages composed. -/
theorem pay_eq (x0 x1 : Vec Ideal S1x1024x768 .f32) :
    k0_pay1 (F := Ideal) x0 x1
      = spread (squares (cosines (scaled (shapeCast S1024x768 x0 Facts₀.shapeCasts_S1x1024x768_S1024x768)))
          (cosines (scaled (shapeCast S1024x768 x1 Facts₀.shapeCasts_S1x1024x768_S1024x768)))) := rfl

/-! ## Each stage at an index -/

/-- A scaled table at (n, d) is the specification's scaled row n at d. -/
theorem scaled_apply (v : FVec Ideal S1024x768 .f32) (n : Fin 1024) (d : Fin 768) :
    scaled v (ix2 n d) = unitRow (fun k => v (ix2 n k)) d := by
  unfold scaled
  rw [truncf_apply, divf_apply, broadcastTo_a1_ab_apply, maximumf_apply, broadcast_apply]
  show Ideal.div (v (ix2 n d)) (max (Ideal.sqrt (shapeCast S1024x1 _ Facts₀.shapeCasts_S1024_S1024x1 (ix2 n (0 : Fin 1)))) _) = _
  rw [shapeCast_a_a1_apply, sum_ab_last]
  rfl

/-- The left operand's index at output (n, m) and contraction coordinate q is (n, q); the right operand's is (q, m). -/
theorem lhs_row (i : S1024x1024.Idx) (q : dot_S1024x768_S768x1024_S1024x1024_1_0_0_1_n_n.contr.Idx) :
    (dot_S1024x768_S768x1024_S1024x1024_1_0_0_1_n_n.lhsIdx i q 0).val = (i 0).val := by
  unfold DotDims.lhsIdx
  rw [dif_neg (show ¬(0 : Fin S1024x768.rank) ∈ dot_S1024x768_S768x1024_S1024x1024_1_0_0_1_n_n.lhsBatch by decide),
    dif_pos (show (0 : Fin S1024x768.rank) ∈ dot_S1024x768_S768x1024_S1024x1024_1_0_0_1_n_n.lhsNonContracting by decide)]
  rfl
theorem lhs_col (i : S1024x1024.Idx) (q : dot_S1024x768_S768x1024_S1024x1024_1_0_0_1_n_n.contr.Idx) :
    (dot_S1024x768_S768x1024_S1024x1024_1_0_0_1_n_n.lhsIdx i q 1).val = (q ⟨0, by decide⟩).val :=
  dot_S1024x768_S768x1024_S1024x1024_1_0_0_1_n_n.lhsIdx_val_of_single rfl i q
theorem rhs_row (i : S1024x1024.Idx) (q : dot_S1024x768_S768x1024_S1024x1024_1_0_0_1_n_n.contr.Idx) :
    (dot_S1024x768_S768x1024_S1024x1024_1_0_0_1_n_n.rhsIdx i q 0).val = (q ⟨0, by decide⟩).val :=
  dot_S1024x768_S768x1024_S1024x1024_1_0_0_1_n_n.rhsIdx_val_of_single rfl i q
theorem rhs_col (i : S1024x1024.Idx) (q : dot_S1024x768_S768x1024_S1024x1024_1_0_0_1_n_n.contr.Idx) :
    (dot_S1024x768_S768x1024_S1024x1024_1_0_0_1_n_n.rhsIdx i q 1).val = (i 1).val := by
  unfold DotDims.rhsIdx
  rw [dif_neg (show ¬(1 : Fin S768x1024.rank) ∈ dot_S1024x768_S768x1024_S1024x1024_1_0_0_1_n_n.rhsBatch by decide),
    dif_pos (show (1 : Fin S768x1024.rank) ∈ dot_S1024x768_S768x1024_S1024x1024_1_0_0_1_n_n.rhsNonContracting by decide)]
  rfl

/-- The product of a table with its transpose at (n, m) pairs rows n and m. -/
theorem cosines_apply (u : FVec Ideal S1024x768 .bf16) (n m : Fin 1024) :
    cosines u (ix2 n m) = ∑ k : Fin 768, u (ix2 n k) * u (ix2 m k) := by
  unfold cosines
  simp only [matmul]
  rw [Ideal.matmul_constant_zero_apply,
    ← Equiv.sum_comp (contrEquiv1 dot_S1024x768_S768x1024_S1024x1024_1_0_0_1_n_n 768 rfl rfl).symm]
  refine Finset.sum_congr rfl fun k _ => ?_
  have hk := contrEquiv1_symm_val dot_S1024x768_S768x1024_S1024x1024_1_0_0_1_n_n 768 rfl rfl k
  have el : dot_S1024x768_S768x1024_S1024x1024_1_0_0_1_n_n.lhsIdx (ix2 n m)
      ((contrEquiv1 dot_S1024x768_S768x1024_S1024x1024_1_0_0_1_n_n 768 rfl rfl).symm k) = ix2 n k :=
    funext fun a => Fin.ext (by
      match a with
      | ⟨0, _⟩ => exact lhs_row _ _
      | ⟨1, _⟩ => exact (lhs_col _ _).trans hk)
  have er : dot_S1024x768_S768x1024_S1024x1024_1_0_0_1_n_n.rhsIdx (ix2 n m)
      ((contrEquiv1 dot_S1024x768_S768x1024_S1024x1024_1_0_0_1_n_n 768 rfl rfl).symm k) = ix2 k m :=
    funext fun a => Fin.ext (by
      match a with
      | ⟨0, _⟩ => exact (rhs_row _ _).trans hk
      | ⟨1, _⟩ => exact rhs_col _ _)
  rw [el, er, transpose_ix2_apply]

/-- The block's every cell is the sum of all the squares times the word 0x3A800000. -/
theorem spread_apply (q : FVec Ideal S1024x1024 .f32) (y : S1x8x128.Idx) :
    spread q y = (∑ n : Fin 1024, ∑ m : Fin 1024, q (ix2 n m)) * Ideal.ofBits .f32 0x3A800000#32 := by
  unfold spread
  rw [broadcastTo_apply _ Facts₀.broadcasts_S1x1x1_S1x8x128 y (ix3 (0 : Fin 1) (0 : Fin 1) (0 : Fin 1))
    (fun a => by match a with | ⟨0, _⟩ => rfl | ⟨1, _⟩ => rfl | ⟨2, _⟩ => rfl)]
  rw [shapeCast_ab_ab1_apply, mulf_apply, broadcast_apply, shapeCast_a_a1_apply, sum_a1_first]
  refine congrArg (· * _) (Finset.sum_congr rfl fun n _ => ?_)
  rw [shapeCast_a_a1_apply, sum_ab_last]

/-! ## The payload at a cell -/

/-- Every cell of the block the body stores holds the pair of tables' total times the word 0x3A800000. -/
theorem pay_apply (x0 x1 : Vec Ideal S1x1024x768 .f32) (y : S1x8x128.Idx) :
    k0_pay1 (F := Ideal) x0 x1 y
      = tableLoss (fun n d => x0 (ix3 (0 : Fin 1) n d)) (fun n d => x1 (ix3 (0 : Fin 1) n d)) * Ideal.ofBits .f32 0x3A800000#32 := by
  rw [pay_eq, spread_apply]
  refine congrArg (· * _) (Finset.sum_congr rfl fun n _ => Finset.sum_congr rfl fun m _ => ?_)
  unfold squares
  rw [mulf_apply, subf_apply, maximumf_apply, maximumf_apply, broadcast_apply, cosines_apply, cosines_apply]
  simp only [scaled_apply, shapeCast_1ab_ab_apply]
  show _ = sqDiff _ _ n m
  unfold sqDiff gram
  simp only [show (Scalar.ofBits (F := Ideal) .f32 0x00000000#32 : EReal) = 0 from Ideal.ofBits_zero_f32]

end Cert.GramLoss.Body

end
-- ==== Proof.KernelArray.lean ====
/-
  The tiled program's whole run, read: after the 32 grid points the cell array holds, at (b, h, w), table pair b's total
  times 1/1024, and the two lines after the region add all cells up and divide by 2^25.

  Point t reads table t of each stack (its input blocks are rows [t, t+1) of the first axis) and writes back block t of
  the cell array; the 32 blocks tile the array, so every cell is some point's.
-/
import proofs.«162571_j24077586661772_2_alg».proof.Proof.Gen.KernelIdeal.Frame
import proofs.«162571_j24077586661772_2_alg».proof.Proof.KernelBody
import Idealize.ShloMosaic.Lib.Pipeline.Value
import Idealize.ShloMosaic.Lib.StableHlo.Run
import Idealize.ShloMosaic.Lib.Tactic

open scoped BigOperators

noncomputable section

namespace Cert.GramLoss.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.GramLoss

variable (m : (ℓ : Loc nD τ sig) → Buf (Elt Ideal) ℓ) (ρ : Dev nD → PrngReg)

theorem hz3 : (![0, 0, 0] : Fin 3 → Nat) = fun _ => 0 := funext fun a => by fin_cases a <;> rfl

/-- At point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0)

/-- The first stack's block at point t is table t. -/
theorem iblk0_apply (c : Dev nD) (t : Fin cfg0.N) (n : Fin 1024) (d : Fin 768) :
    (iblk m c 0 t : Vec Ideal S1x1024x768 .f32) (ix3 (0 : Fin 1) n d)
      = (V m c main_arg0 : S32x1024x768.Idx → EReal) (ix3 (t.cast N_0) n d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 768 + 1 * d.val = d.val; omega

/-- The second stack's block at point t is table t. -/
theorem iblk1_apply (c : Dev nD) (t : Fin cfg0.N) (n : Fin 1024) (d : Fin 768) :
    (iblk m c 1 t : Vec Ideal S1x1024x768 .f32) (ix3 (0 : Fin 1) n d)
      = (V m c main_arg1 : S32x1024x768.Idx → EReal) (ix3 (t.cast N_0) n d) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 768 + 1 * d.val = d.val; omega

/-- What point t writes back is block t of the cell array of the stacks as the region finds them. -/
theorem flushed_eq (c : Dev nD) (t : Fin cfg0.N) :
    (dats m 0 c).flushed 2 t
      = ((cfg0.win 2).blk t).view.read (Elt Ideal) (cells (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x1024x768) hz3]
  funext y
  obtain ⟨-, -, -, -, -, -, e0, e1, e2⟩ := idx_facts t
  have hb : (((cfg0.win 2).blk t).view.emb y) 0 = t.cast N_0 := Fin.ext (by
    have hy : (y 0).val < 1 := (y 0).isLt
    show win0_2.index t (0 : Fin 3) * 1 + 1 * (y 0).val = t.val
    omega)
  show k0_pay1 (F := Ideal) (iblk m c 0 t) (iblk m c 1 t) y
    = tableLoss (table (V m c main_arg0) ((((cfg0.win 2).blk t).view.emb y) 0))
        (table (V m c main_arg1) ((((cfg0.win 2).blk t).view.emb y) 0)) * Ideal.ofBits .f32 0x3A800000#32
  rw [Body.pay_apply, hb]
  have e0' : (fun n d => (iblk m c 0 t : Vec Ideal S1x1024x768 .f32) (ix3 (0 : Fin 1) n d))
      = table (V m c main_arg0) (t.cast N_0) := funext fun n => funext fun d => iblk0_apply m c t n d
  have e1' : (fun n d => (iblk m c 1 t : Vec Ideal S1x1024x768 .f32) (ix3 (0 : Fin 1) n d))
      = table (V m c main_arg1) (t.cast N_0) := funext fun n => funext fun d => iblk1_apply m c t n d
  rw [e0', e1']

/-- A cell is in point t's block iff each coordinate is in the block's range on its axis. -/
theorem mem_blk (t : Fin cfg0.N) (i : S32x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every cell is in the block of the point of its first coordinate. -/
theorem cover (i : S32x8x128.Idx) :
    ∃ t : Fin cfg0.N, (cfg0.win 2).flush t = true ∧ i ∈ ((cfg0.win 2).blk t).view.set := by
  have h0 : (i 0).val < 32 := (i 0).isLt
  have h1 : (i 1).val < 8 := (i 1).isLt
  have h2 : (i 2).val < 128 := (i 2).isLt
  let t : Fin cfg0.N := ⟨(i 0).val, by rw [show cfg0.N = 32 from N_0]; exact h0⟩
  obtain ⟨-, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    rw [e0]; show (i 0).val * 1 ≤ (i 0).val ∧ (i 0).val < (i 0).val * 1 + 1; omega
  | ⟨1, _⟩ =>
    show win0_2.index t (1 : Fin 3) * 8 ≤ (i 1).val ∧ (i 1).val < win0_2.index t (1 : Fin 3) * 8 + 8
    omega
  | ⟨2, _⟩ =>
    show win0_2.index t (2 : Fin 3) * 128 ≤ (i 2).val ∧ (i 2).val < win0_2.index t (2 : Fin 3) * 128 + 128
    omega

/-- The cell array after the region. -/
theorem final_cells (c : Dev nD) :
    (dats m 0 c).arrAt 2 cfg0.N = cells (m ((c : Thread nD τ).loc main_arg0)) (m ((c : Thread nD τ).loc main_arg1)) :=
  (dats m 0 c).arrAt_eq_of_cover 2 (cells (V m c main_arg0) (V m c main_arg1)) (fun t _ => flushed_eq m c t) cover

end Cert.GramLoss.Kernel

end
-- ==== Proof.KernelRun.lean ====
/-
  The tiled program's result: the two host lines after the region sum every cell and divide by 2^25, and the sum of the
  cells is the sum of the squared differences over all positions, so the result is the mean.
-/
import proofs.«162571_j24077586661772_2_alg».proof.Proof.KernelArray

open scoped BigOperators

noncomputable section

namespace Cert.GramLoss.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.GramLoss

variable (m : (ℓ : Loc nD τ sig) → Buf (Elt Ideal) ℓ) (ρ : Dev nD → PrngReg)

/-- The host's sum over every axis of the cell array, from the zero word, is the plain sum of the cells. -/
theorem sum_all (x : (⟨S32x8x128, .f32⟩ : BufTy).Contents (Elt Ideal)) (i : S_.Idx) :
    Host.reduceAdd (F := Ideal) x (constant S_ .f32 0x00000000#32) Facts₀.reducesTo_S32x8x128_S_d0_1_2 Facts₀.h_S_ i
      = ∑ j : S32x8x128.Idx, x j := by
  simp only [Host.reduceAdd, Ideal.hostReduceAdd_def]
  rw [Ideal.hostReduceAdd_total Facts₀.reducesTo_S32x8x128_S_d0_1_2 (fun b => b.elim0) x _ i]
  show Ideal.ofBits .f32 0x00000000#32 + _ = _
  rw [Ideal.ofBits_zero_f32, zero_add]

/-- The result buffer after the lines that follow the region. -/
theorem tail_eq (c : Dev nD) :
    Pipeline.afterTail₀ cfgs (dats m) 0 (V0 m) [hostOps1] c main_v2
      = fun _ => meanLoss (m ((c : Thread nD τ).loc main_arg0)) (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = cells (m ((c : Thread nD τ).loc main_arg0)) (m ((c : Thread nD τ).loc main_arg1)) :=
    (Pipeline.withArrays_arr spec0 launch0.win.arr_inj c _ _ 2).trans (final_cells m c)
  rw [e]
  funext i
  show Ideal.div (Host.reduceAdd (F := Ideal) _ _ _ _ i) (Ideal.ofBits .f32 0x4C000000#32) = _
  rw [sum_all, sum_cells]
  rfl

/-- The result buffer is one of the buffers the region passes by. -/
theorem result_passes : main_v2 ∈ Pipeline.restRefs sig (cfgs 0).spec :=
  Pipeline.mem_restRefs_of main_v2 rfl (by decide)

/-- The run, read: the result at the mean of the stacks' squared differences, the stacks unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 result_passes).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.GramLoss.Kernel

end
-- ==== Proof.RefSide.lean ====
/-
  The reference program computes the mean squared difference of the cut cosines: its operations, read one at a time at an
  index, are the specification's definitions. A row's norm is read where the reference broadcasts it back along the row;
  the batched product of the scaled stack with itself, at (b, n, m), pairs rows n and m of table b.
-/
import proofs.«162571_j24077586661772_2_alg».proof.Proof.Gen.ReferenceIdeal.Read
import proofs.«162571_j24077586661772_2_alg».proof.Proof.Spec

open scoped BigOperators

noncomputable section

namespace Cert.GramLoss.Ref

open Cert.ReferenceIdeal Cert.ReferenceIdeal.Gen Cert.ReferenceIdeal.Read Idealize.ShloMosaic Idealize.ShloMosaic.ValueIdx
open Cert.GramLoss

/-- A stack of 32 tables, as the reference holds it. -/
abbrev Stack := (⟨S32x1024x768, .f32⟩ : BufTy).Contents (Elt Ideal)

/-! ## The first stack -/

/-- Entry k of the row whose norm position (b, n, d) is divided by. -/
theorem row_s (b : Fin 32) (n : Fin 1024) (d k : Fin 768) :
    idx_main_v1 (idx_main_v2 (idx_main_v6 (ix3 b n d))) k = ix3 b n k :=
  funext fun a => Fin.ext (by match a with | ⟨0, _⟩ => rfl | ⟨1, _⟩ => rfl | ⟨2, _⟩ => rfl)

/-- The scaled first stack at (b, n, d) is the scaled row n of table b at d. -/
theorem unit_s (X : Stack) (b : Fin 32) (n : Fin 1024) (d : Fin 768) :
    val_main_v7 (F := Ideal) X (ix3 b n d) = unitRow (table X b n) d := by
  rw [val_main_v7_apply, val_main_v6_apply, val_main_v5_apply, val_main_v3_apply, val_main_v4_apply, val_main_v2_apply,
    val_main_v1_apply, val_main_cst_0_apply, val_main_cst_apply]
  simp only [val_main_v0_apply, row_s, Ideal.hostDivf_def, Ideal.hostUnary_sqrt_def, Ideal.maximumf_def, Ideal.mulf_def,
    Ideal.ofBits_def, Ideal.ofBits_zero_f32, zero_add]
  rfl

theorem lrow_s (b : Fin 32) (n m : Fin 1024) (k : Fin 768) : lidx_main_v16 (ix3 b n m) k = ix3 b n k :=
  funext fun a => Fin.ext (by match a with | ⟨0, _⟩ => rfl | ⟨1, _⟩ => rfl | ⟨2, _⟩ => rfl)
theorem rrow_s (b : Fin 32) (n m : Fin 1024) (k : Fin 768) : ridx_main_v16 (ix3 b n m) k = ix3 b m k :=
  funext fun a => Fin.ext (by match a with | ⟨0, _⟩ => rfl | ⟨1, _⟩ => rfl | ⟨2, _⟩ => rfl)

/-- The batched product at (b, n, m) is the cosine of rows n and m of table b. -/
theorem gram_s (X : Stack) (b : Fin 32) (n m : Fin 1024) :
    val_main_v16 (F := Ideal) X (ix3 b n m) = gram (table X b) n m := by
  rw [val_main_v16_apply]
  simp only [lrow_s, rrow_s, unit_s]
  rfl

/-! ## The second stack -/

theorem row_t (b : Fin 32) (n : Fin 1024) (d k : Fin 768) :
    idx_main_v9 (idx_main_v10 (idx_main_v14 (ix3 b n d))) k = ix3 b n k :=
  funext fun a => Fin.ext (by match a with | ⟨0, _⟩ => rfl | ⟨1, _⟩ => rfl | ⟨2, _⟩ => rfl)

theorem unit_t (Y : Stack) (b : Fin 32) (n : Fin 1024) (d : Fin 768) :
    val_main_v15 (F := Ideal) Y (ix3 b n d) = unitRow (table Y b n) d := by
  rw [val_main_v15_apply, val_main_v14_apply, val_main_v13_apply, val_main_v11_apply, val_main_v12_apply, val_main_v10_apply,
    val_main_v9_apply, val_main_cst_2_apply, val_main_cst_1_apply]
  simp only [val_main_v8_apply, row_t, Ideal.hostDivf_def, Ideal.hostUnary_sqrt_def, Ideal.maximumf_def, Ideal.mulf_def,
    Ideal.ofBits_def, Ideal.ofBits_zero_f32, zero_add]
  rfl

theorem lrow_t (b : Fin 32) (n m : Fin 1024) (k : Fin 768) : lidx_main_v17 (ix3 b n m) k = ix3 b n k :=
  funext fun a => Fin.ext (by match a with | ⟨0, _⟩ => rfl | ⟨1, _⟩ => rfl | ⟨2, _⟩ => rfl)
theorem rrow_t (b : Fin 32) (n m : Fin 1024) (k : Fin 768) : ridx_main_v17 (ix3 b n m) k = ix3 b m k :=
  funext fun a => Fin.ext (by match a with | ⟨0, _⟩ => rfl | ⟨1, _⟩ => rfl | ⟨2, _⟩ => rfl)

theorem gram_t (Y : Stack) (b : Fin 32) (n m : Fin 1024) :
    val_main_v17 (F := Ideal) Y (ix3 b n m) = gram (table Y b) n m := by
  rw [val_main_v17_apply]
  simp only [lrow_t, rrow_t, unit_t]
  rfl

/-! ## The squared differences and their mean -/

/-- The squared difference of the cut products at a position. -/
theorem sq_at (X Y : Stack) (j : S32x1024x1024.Idx) : val_main_v23 (F := Ideal) X Y j = sqDiffAt X Y j := by
  obtain ⟨b, n, m, rfl⟩ : ∃ (b : Fin 32) (n m : Fin 1024), j = ix3 b n m := ⟨j 0, j 1, j 2, eq_ix3 j⟩
  rw [val_main_v23_apply, val_main_v22_apply, val_main_v19_apply, val_main_v21_apply, val_main_v18_apply, val_main_v20_apply,
    val_main_cst_3_apply, val_main_cst_4_apply, gram_s, gram_t]
  simp only [Ideal.mulf_def, Ideal.subf_def, Ideal.maximumf_def, Ideal.ofBits_def, Ideal.ofBits_zero_f32]
  rfl

/-- The reference's result is the mean. -/
theorem result_eq (X Y : Stack) : val_main_v25 (F := Ideal) X Y = fun _ => meanLoss X Y := by
  funext i
  rw [val_main_v25_apply, val_main_v24_apply, val_main_cst_6_apply, val_main_cst_5_apply]
  simp only [sq_at, Ideal.hostDivf_def, Ideal.ofBits_def, Ideal.ofBits_zero_f32, zero_add]
  rfl

end Cert.GramLoss.Ref

end
-- ==== Proof.lean ====
/-
  Two programs for the mean squared difference of cut cosine tables agree on the extended reals.

  Both take two stacks of 32 tables of 1024 rows of 768 entries, scale every row by its length (kept above a small
  floor), pair the scaled rows of a table by inner product, cut the negative products to zero, and average the squared
  difference of the two stacks' products over all 32 * 1024 * 1024 positions. The reference does this on whole stacks
  and sums every position at once. The tiled program treats one pair of tables per grid point: it sums that pair's
  squared differences by rows and then down the column, spreads the total times 1/1024 over an 8 x 128 block of
  cells, and after the grid sums all cells and divides by the number of positions. Since 8 * 128 copies of
  (x * 1/1024) add up to x for every extended real x, the cells add up to the same sum, and the two results are one
  number. No input is opened: commutativity and associativity of the sums are all the law needs, so the claim holds at
  the infinities too.
-/
import proofs.«162571_j24077586661772_2_alg».proof.Defs
import proofs.«162571_j24077586661772_2_alg».proof.Proof.Gen.Kernel
import proofs.«162571_j24077586661772_2_alg».proof.Proof.Gen.Kernel.Skeleton
import proofs.«162571_j24077586661772_2_alg».proof.Proof.Gen.Kernel.Launch
import proofs.«162571_j24077586661772_2_alg».proof.Proof.Gen.Kernel.Points
import proofs.«162571_j24077586661772_2_alg».proof.Proof.Gen.Kernel.Frame
import proofs.«162571_j24077586661772_2_alg».proof.Proof.Gen.KernelIdeal
import proofs.«162571_j24077586661772_2_alg».proof.Proof.Gen.KernelIdeal.Skeleton
import proofs.«162571_j24077586661772_2_alg».proof.Proof.Gen.KernelIdeal.Launch
import proofs.«162571_j24077586661772_2_alg».proof.Proof.Gen.KernelIdeal.Points
import proofs.«162571_j24077586661772_2_alg».proof.Proof.Gen.KernelIdeal.Frame
import proofs.«162571_j24077586661772_2_alg».proof.Proof.Gen.ReferenceIdeal
import proofs.«162571_j24077586661772_2_alg».proof.Proof.Gen.ReferenceIdeal.Run
import proofs.«162571_j24077586661772_2_alg».proof.Proof.Gen.ReferenceIdeal.Read
import proofs.«162571_j24077586661772_2_alg».proof.Proof.Gen.Pre_finite_inputs
import proofs.«162571_j24077586661772_2_alg».proof.Proof.KernelRun
import proofs.«162571_j24077586661772_2_alg».proof.Proof.RefSide
import Idealize.ShloMosaic.Adequacy
import Idealize.ShloMosaic.Init

noncomputable section

namespace Cert.Proof

open Idealize.ShloMosaic Idealize.SL.Sem

/-- The tiled program as printed runs and leaves the stacks as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves the stacks as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the mean of the squared differences of the stacks they were given, and they were given
    the same stacks. -/
theorem algebraic : Cert.algebraic_KernelIdeal_ReferenceIdeal := by
  intro m ρ m' ρ' _ hagree
  refine ⟨fun c => fun _ => Cert.GramLoss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.GramLoss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.GramLoss.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
